-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x3200000 : Shape := ⟨2, ![2, 3200000]⟩
abbrev S6x16 : Shape := ⟨2, ![6, 16]⟩
abbrev S16 : Shape := ⟨1, ![16]⟩
abbrev S16x16 : Shape := ⟨2, ![16, 16]⟩
abbrev S16x8 : Shape := ⟨2, ![16, 8]⟩
abbrev S8 : Shape := ⟨1, ![8]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x16 : S_.BroadcastsInDim S6x16 (![] : Fin 0 → Fin S6x16.rank)
  reducesTo_S6x16_S_d0_1 : S6x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg8 : FVec F S16x8 .f32) (main_arg9 : FVec F S8 .f32) (main_v33 : IVec S_ 1) : IVec S_ 1 :=
  let main_v34 : FVec F S16x8 .f32 := Host.absf main_arg8
  let main_cst_12 : FVec F S_ .f32 := constant S_ .f32 0x7F800000#32
  let main_v35 : FVec F S16x8 .f32 := broadcastInDim S16x8 ![] bcast_S_S16x8 main_cst_12
  let main_v36 : IVec S16x8 1 := cmpf .olt main_v34 main_v35
  let main_c_13 : IVec S_ 1 := constantI S_ 1 1#1
  let main_v37 : IVec S_ 1 := (fun x v => Host.reduce IntOp.andi x v reducesTo_S16x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg5 : FVec F S16x16 .f32) (main_arg6 : FVec F S16x16 .f32) (main_arg7 : FVec F S16 .f32) (main_arg8 : FVec F S16x8 .f32) (main_arg9 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x6 .f32) (main_arg1 : IVec S2x3200000 32) (main_arg2 : FVec F S6x16 .f32) (main_arg3 : FVec F S6x16 .f32) (main_arg4 : FVec F S16 .f32) (main_arg5 : FVec F S16x16 .f32) (main_arg6 : FVec F S16x16 .f32) (main_arg7 : FVec F S16 .f32) (main_arg8 : FVec F S16x8 .f32) (main_arg9 : FVec F S8 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x16 .f32 := Host.absf main_arg2
  let main_cst_0 : FVec F S_ .f32 := constant S_ .f32 0x7F800000#32
  let main_v5 : FVec F S6x16 .f32 := broadcastInDim S6x16 ![] bcast_S_S6x16 main_cst_0
  let main_v6 : IVec S6x16 1 := cmpf .olt main_v4 main_v5
  let main_c_1 : IVec S_ 1 := constantI S_ 1 1#1
  let main_v7 : IVec S_ 1 := (fun x v => Host.reduce IntOp.andi x v reducesTo_S6x16_S_d0_1 h_S_) main_v6 main_c_1
  let main_v8 : IVec S_ 1 := andi main_v3 main_v7
  let main_v9 : FVec F S6x16 .f32 := Host.absf main_arg3
  let main_cst_2 : FVec F S_ .f32 := constant S_ .f32 0x7F800000#32
  let main_v10 : FVec F S6x16 .f32 := broadcastInDim S6x16 ![] bcast_S_S6x16 main_cst_2
  let main_v11 : IVec S6x16 1 := cmpf .olt main_v9 main_v10
  let main_c_3 : IVec S_ 1 := constantI S_ 1 1#1
  let main_v12 : IVec S_ 1 := (fun x v => Host.reduce IntOp.andi x v reducesTo_S6x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_v13 main_v16
-- ==== Kernel.lean ====
abbrev S100000x6 : Shape := ⟨2, ![100000, 6]⟩
abbrev S2x3200000 : Shape := ⟨2, ![2, 3200000]⟩
abbrev S6x16 : Shape := ⟨2, ![6, 16]⟩
abbrev S16 : Shape := ⟨1, ![16]⟩
abbrev S16x16 : Shape := ⟨2, ![16, 16]⟩
abbrev S16x8 : Shape := ⟨2, ![16, 8]⟩
abbrev S8 : Shape := ⟨1, ![8]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x6 : Shape := ⟨2, ![3200000, 6]⟩
abbrev S1x16 : Shape := ⟨2, ![1, 16]⟩
abbrev S100000x16 : Shape := ⟨2, ![100000, 16]⟩
abbrev S10000x6 : Shape := ⟨2, ![10000, 6]⟩
abbrev S10000x1 : Shape := ⟨2, ![10000, 1]⟩
abbrev S10000x16 : Shape := ⟨2, ![10000, 16]⟩
abbrev S3200000x16 : Shape := ⟨2, ![3200000, 16]⟩
abbrev S1x8 : Shape := ⟨2, ![1, 8]⟩
abbrev S100000x8 : Shape := ⟨2, ![100000, 8]⟩
abbrev S10000x8 : Shape := ⟨2, ![10000, 8]⟩

abbrev nBuf : Space → Nat
  | .hbm => 58
  | .vmem => 24
  | .smem => 0
  | _ => 0

abbrev bufTy : (tb : Table) → Fin (tcTables nBuf tb) → BufTy
  | .hbm, ⟨0, _⟩ => ⟨S100000x6, .f32⟩
  | .hbm, ⟨1, _⟩ => ⟨S2x3200000, .i32⟩
  | .hbm, ⟨2, _⟩ => ⟨S6x16, .f32⟩
  | .hbm, ⟨3, _⟩ => ⟨S6x16, .f32⟩
  | .hbm, ⟨4, _⟩ => ⟨S16, .f32⟩
  | .hbm, ⟨5, _⟩ => ⟨S16x16, .f32⟩
  | .hbm, ⟨6, _⟩ => ⟨S16x16, .f32⟩
  | .hbm, ⟨7, _⟩ => ⟨S16, .f32⟩
  | .hbm, ⟨8, _⟩ => ⟨S16x8, .f32⟩
  | .hbm, ⟨9, _⟩ => ⟨S8, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .f32⟩
  | .hbm, ⟨15, _⟩ => ⟨S3200000, .f32⟩
  | .hbm, ⟨16, _⟩ => ⟨S_, .f32⟩
  | .hbm, ⟨17, _⟩ => ⟨S100000, .f32⟩
  | .hbm, ⟨18, _⟩ => ⟨S3200000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x6, .f32⟩
  | .hbm, ⟨36, _⟩ => ⟨S_, .f32⟩
  | .hbm, ⟨37, _⟩ => ⟨S100000x6, .f32⟩
  | .hbm, ⟨38, _⟩ => ⟨S3200000x1, .i32⟩
  | .hbm, ⟨39, _⟩ => ⟨S100000x6, .f32⟩
  | .hbm, ⟨40, _⟩ => ⟨S1x16, .f32⟩
  | .hbm, ⟨41, _⟩ => ⟨S100000x16, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x16, .f32⟩
  | .hbm, ⟨51, _⟩ => ⟨S_, .f32⟩
  | .hbm, ⟨52, _⟩ => ⟨S100000x16, .f32⟩
  | .hbm, ⟨53, _⟩ => ⟨S3200000x1, .i32⟩
  | .hbm, ⟨54, _⟩ => ⟨S100000x16, .f32⟩
  | .hbm, ⟨55, _⟩ => ⟨S1x16, .f32⟩
  | .hbm, ⟨56, _⟩ => ⟨S1x8, .f32⟩
  | .hbm, ⟨57, _⟩ => ⟨S100000x8, .f32⟩
  | .local _ .vmem, ⟨0, _⟩ => ⟨S10000x6, .f32⟩
  | .local _ .vmem, ⟨1, _⟩ => ⟨S10000x6, .f32⟩
  | .local _ .vmem, ⟨2, _⟩ => ⟨S10000x1, .f32⟩
  | .local _ .vmem, ⟨3, _⟩ => ⟨S10000x1, .f32⟩
  | .local _ .vmem, ⟨4, _⟩ => ⟨S10000x6, .f32⟩
  | .local _ .vmem, ⟨5, _⟩ => ⟨S10000x6, .f32⟩
  | .local _ .vmem, ⟨6, _⟩ => ⟨S6x16, .f32⟩
  | .local _ .vmem, ⟨7, _⟩ => ⟨S6x16, .f32⟩
  | .local _ .vmem, ⟨8, _⟩ => ⟨S1x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S10000x1, .f32⟩
  | .local _ .vmem, ⟨14, _⟩ => ⟨S10000x1, .f32⟩
  | .local _ .vmem, ⟨15, _⟩ => ⟨S10000x16, .f32⟩
  | .local _ .vmem, ⟨16, _⟩ => ⟨S10000x16, .f32⟩
  | .local _ .vmem, ⟨17, _⟩ => ⟨S16x16, .f32⟩
  | .local _ .vmem, ⟨18, _⟩ => ⟨S16x16, .f32⟩
  | .local _ .vmem, ⟨19, _⟩ => ⟨S1x16, .f32⟩
  | .local _ .vmem, ⟨20, _⟩ => ⟨S16x8, .f32⟩
  | .local _ .vmem, ⟨21, _⟩ => ⟨S1x8, .f32⟩
  | .local _ .vmem, ⟨22, _⟩ => ⟨S10000x8, .f32⟩
  | .local _ .vmem, ⟨23, _⟩ => ⟨S10000x8, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x8 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x6 : S_.BroadcastsInDim S100000x6 (![] : Fin 0 → Fin S100000x6.rank)
  shapeCasts_S16_S1x16 : S16.ShapeCasts S1x16
  inb_S10000x6_S10000x6_0_0 : ∀ a, (![0, 0] : Fin 2 → Nat) a + S10000x6.size a ≤ S10000x6.size a
  h_S10000x6 : 0 < S10000x6.numel
  shapeCasts_S10000x6_S10000x6 : S10000x6.ShapeCasts S10000x6
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x6 : S10000x1.Broadcasts S10000x6
  bitsLt_bf16_f32 : FTy.bits .bf16 < FTy.bits .f32
  inb_S6x16_S6x16_0_0 : ∀ a, (![0, 0] : Fin 2 → Nat) a + S6x16.size a ≤ S6x16.size a
  h_S6x16 : 0 < S6x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  shapeCasts_S8_S1x8 : S8.ShapeCasts S1x8
  shapeCasts_S10000x16_S10000x16 : S10000x16.ShapeCasts S10000x16
  broadcasts_S10000x1_S10000x16 : S10000x1.Broadcasts S10000x16
  inb_S16x16_S16x16_0_0 : ∀ a, (![0, 0] : Fin 2 → Nat) a + S16x16.size a ≤ S16x16.size a
  h_S16x16 : 0 < S16x16.numel
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S10000x8_S10000x8_0_0 : ∀ a, (![0, 0] : Fin 2 → Nat) a + S10000x8.size a ≤ S10000x8.size a
  h_S10000x8 : 0 < S10000x8.numel
  scatter_S100000_S3200000x1_S3200000_n_0_0_1_wf : ScatterDims.WF S100000 S3200000x1 S3200000 [] [0] [0] 1
  gather_S100000x6_S3200000x1_S3200000x6_1_0_n_n_0_1_16_wf : GatherDims.WF S100000x6 S3200000x1 S3200000x6 [1] [0] [] [0] [] 1 ![1, 6]
  scatter_S100000x6_S3200000x1_S3200000x6_1_0_0_1_wf : ScatterDims.WF S100000x6 S3200000x1 S3200000x6 [1] [0] [0] 1
  dot_S10000x6_S6x16_S10000x16_1_0_0_1_n_n_wf : DotDims.WF S10000x6 S6x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x16_S10000x16_1_0_0_1_n_n_wf : DotDims.WF S10000x16 S16x16 S10000x16 [1] [0] [0] [1] [] []
  dot_S10000x16_S16x8_S10000x8_1_0_0_1_n_n_wf : DotDims.WF S10000x16 S16x8 S10000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x6.size a ≤ S100000x6.size a
  hwx0_2 : ∀ i : grid0.Coords, EltTy.bits .f32 = 32 ∨ (Rect.block (s := S100000x6) S10000x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x16.size a ≤ S6x16.size a
  hwx0_3 : ∀ i : grid0.Coords, EltTy.bits .f32 = 32 ∨ (Rect.block (s := S6x16) S6x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x16.size a ≤ S6x16.size a
  hwx0_4 : ∀ i : grid0.Coords, EltTy.bits .f32 = 32 ∨ (Rect.block (s := S6x16) S6x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x16.size a ≤ S100000x16.size a
  hwx0_6 : ∀ i : grid0.Coords, EltTy.bits .f32 = 32 ∨ (Rect.block (s := S100000x16) S10000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x8.size a ≤ S16x8.size a
  hwx1_6 : ∀ i : grid1.Coords, EltTy.bits .f32 = 32 ∨ (Rect.block (s := S16x8) S16x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x8.size a ≤ S1x8.size a
  hwx1_7 : ∀ i : grid1.Coords, EltTy.bits .f32 = 32 ∨ (Rect.block (s := S1x8) S1x8.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x8.size a ≤ S100000x8.size a
  hwx1_8 : ∀ i : grid1.Coords, EltTy.bits .f32 = 32 ∨ (Rect.block (s := S100000x8) S10000x8.size (cc1_transform_8 i) (hinb1_8 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x6_S3200000x1_S3200000x6_1_0_n_n_0_1_16 : GatherDims S100000x6 S3200000x1 S3200000x6 where
  offsetDims := [1]
  collapsedSliceDims := [0]
  operandBatchingDims := []
  startIndicesBatchingDims := []
  startIndexMap := [0]
  indexVectorDim := 1
  sliceSizes := ![1, 6]
  wf := gather_S100000x6_S3200000x1_S3200000x6_1_0_n_n_0_1_16_wf
def scatter_S100000x6_S3200000x1_S3200000x6_1_0_0_1 : ScatterDims S100000x6 S3200000x1 S3200000x6 where
  updateWindowDims := [1]
  insertedWindowDims := [0]
  scatterDimsToOperandDims := [0]
  indexVectorDim := 1
  wf := scatter_S100000x6_S3200000x1_S3200000x6_1_0_0_1_wf
def dot_S10000x6_S6x16_S10000x16_1_0_0_1_n_n : DotDims S10000x6 S6x16 S10000x16 where
  lhsContracting := [1]
  rhsContracting := [0]
  lhsNonContracting := [0]
  rhsNonContracting := [1]
  lhsBatch := []
  rhsBatch := []
  wf := dot_S10000x6_S6x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf

abbrev win0_0 : Pipeline.Window sig grid0 :=
  Pipeline.Window.ofSpec (Memref.whole main_v22) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S6x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S6x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S10000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S10000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S16x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x8.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37) S10000x8.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x6 : Shape := ⟨2, ![100000, 6]⟩
abbrev S2x3200000 : Shape := ⟨2, ![2, 3200000]⟩
abbrev S6x16 : Shape := ⟨2, ![6, 16]⟩
abbrev S16 : Shape := ⟨1, ![16]⟩
abbrev S16x16 : Shape := ⟨2, ![16, 16]⟩
abbrev S16x8 : Shape := ⟨2, ![16, 8]⟩
abbrev S8 : Shape := ⟨1, ![8]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x6 : Shape := ⟨2, ![3200000, 6]⟩
abbrev S100000x16 : Shape := ⟨2, ![100000, 16]⟩
abbrev S1x16 : Shape := ⟨2, ![1, 16]⟩
abbrev S3200000x16 : Shape := ⟨2, ![3200000, 16]⟩
abbrev S100000x8 : Shape := ⟨2, ![100000, 8]⟩
abbrev S1x8 : Shape := ⟨2, ![1, 8]⟩

abbrev nBuf : Space → Nat
  | .hbm => 79
  | .vmem => 0
  | .smem => 0
  | _ => 0

abbrev bufTy : (tb : Table) → Fin (tcTables nBuf tb) → BufTy
  | .hbm, ⟨0, _⟩ => ⟨S100000x6, .f32⟩
  | .hbm, ⟨1, _⟩ => ⟨S2x3200000, .i32⟩
  | .hbm, ⟨2, _⟩ => ⟨S6x16, .f32⟩
  | .hbm, ⟨3, _⟩ => ⟨S6x16, .f32⟩
  | .hbm, ⟨4, _⟩ => ⟨S16, .f32⟩
  | .hbm, ⟨5, _⟩ => ⟨S16x16, .f32⟩
  | .hbm, ⟨6, _⟩ => ⟨S16x16, .f32⟩
  | .hbm, ⟨7, _⟩ => ⟨S16, .f32⟩
  | .hbm, ⟨8, _⟩ => ⟨S16x8, .f32⟩
  | .hbm, ⟨9, _⟩ => ⟨S8, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .f32⟩
  | .hbm, ⟨15, _⟩ => ⟨S3200000, .f32⟩
  | .hbm, ⟨16, _⟩ => ⟨S_, .f32⟩
  | .hbm, ⟨17, _⟩ => ⟨S100000, .f32⟩
  | .hbm, ⟨18, _⟩ => ⟨S3200000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x6, .f32⟩
  | .hbm, ⟨36, _⟩ => ⟨S_, .f32⟩
  | .hbm, ⟨37, _⟩ => ⟨S100000x6, .f32⟩
  | .hbm, ⟨38, _⟩ => ⟨S3200000x1, .i32⟩
  | .hbm, ⟨39, _⟩ => ⟨S100000x6, .f32⟩
  | .hbm, ⟨40, _⟩ => ⟨S100000x6, .f32⟩
  | .hbm, ⟨41, _⟩ => ⟨S100000x6, .f32⟩
  | .hbm, ⟨42, _⟩ => ⟨S100000x16, .f32⟩
  | .hbm, ⟨43, _⟩ => ⟨S100000x16, .f32⟩
  | .hbm, ⟨44, _⟩ => ⟨S100000x16, .f32⟩
  | .hbm, ⟨45, _⟩ => ⟨S1x16, .f32⟩
  | .hbm, ⟨46, _⟩ => ⟨S100000x16, .f32⟩
  | .hbm, ⟨47, _⟩ => ⟨S100000x16, .f32⟩
  | .hbm, ⟨48, _⟩ => ⟨S_, .f32⟩
  | .hbm, ⟨49, _⟩ => ⟨S100000x16, .f32⟩
  | .hbm, ⟨50, _⟩ => ⟨S100000x16, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x16, .f32⟩
  | .hbm, ⟨60, _⟩ => ⟨S_, .f32⟩
  | .hbm, ⟨61, _⟩ => ⟨S100000x16, .f32⟩
  | .hbm, ⟨62, _⟩ => ⟨S3200000x1, .i32⟩
  | .hbm, ⟨63, _⟩ => ⟨S100000x16, .f32⟩
  | .hbm, ⟨64, _⟩ => ⟨S100000x16, .f32⟩
  | .hbm, ⟨65, _⟩ => ⟨S100000x16, .f32⟩
  | .hbm, ⟨66, _⟩ => ⟨S100000x16, .f32⟩
  | .hbm, ⟨67, _⟩ => ⟨S100000x16, .f32⟩
  | .hbm, ⟨68, _⟩ => ⟨S100000x16, .f32⟩
  | .hbm, ⟨69, _⟩ => ⟨S1x16, .f32⟩
  | .hbm, ⟨70, _⟩ => ⟨S100000x16, .f32⟩
  | .hbm, ⟨71, _⟩ => ⟨S100000x16, .f32⟩
  | .hbm, ⟨72, _⟩ => ⟨S_, .f32⟩
  | .hbm, ⟨73, _⟩ => ⟨S100000x16, .f32⟩
  | .hbm, ⟨74, _⟩ => ⟨S100000x16, .f32⟩
  | .hbm, ⟨75, _⟩ => ⟨S100000x8, .f32⟩
  | .hbm, ⟨76, _⟩ => ⟨S1x8, .f32⟩
  | .hbm, ⟨77, _⟩ => ⟨S100000x8, .f32⟩
  | .hbm, ⟨78, _⟩ => ⟨S100000x8, .f32⟩
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x6 : S_.BroadcastsInDim S100000x6 (![] : Fin 0 → Fin S100000x6.rank)
  bcast_S100000x1_S100000x6_0_1 : S100000x1.BroadcastsInDim S100000x6 (![0, 1] : Fin 2 → Fin S100000x6.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S3200000x1_S3200000_n_0_0_1_wf : ScatterDims.WF S100000 S3200000x1 S3200000 [] [0] [0] 1
  gather_S100000x6_S3200000x1_S3200000x6_1_0_n_n_0_1_16_wf : GatherDims.WF S100000x6 S3200000x1 S3200000x6 [1] [0] [] [0] [] 1 ![1, 6]
  scatter_S100000x6_S3200000x1_S3200000x6_1_0_0_1_wf : ScatterDims.WF S100000x6 S3200000x1 S3200000x6 [1] [0] [0] 1
  dot_S100000x6_S6x16_S100000x16_1_0_0_1_n_n_wf : DotDims.WF S100000x6 S6x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x16_S16x8_S100000x8_1_0_0_1_n_n_wf : DotDims.WF S100000x16 S16x8 S100000x8 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x6_S3200000x1_S3200000x6_1_0_n_n_0_1_16 : GatherDims S100000x6 S3200000x1 S3200000x6 where
  offsetDims := [1]
  collapsedSliceDims := [0]
  operandBatchingDims := []
  startIndicesBatchingDims := []
  startIndexMap := [0]
  indexVectorDim := 1
  sliceSizes := ![1, 6]
  wf := gather_S100000x6_S3200000x1_S3200000x6_1_0_n_n_0_1_16_wf
def scatter_S100000x6_S3200000x1_S3200000x6_1_0_0_1 : ScatterDims S100000x6 S3200000x1 S3200000x6 where
  updateWindowDims := [1]
  insertedWindowDims := [0]
  scatterDimsToOperandDims := [0]
  indexVectorDim := 1
  wf := scatter_S100000x6_S3200000x1_S3200000x6_1_0_0_1_wf
def dot_S100000x6_S6x16_S100000x16_1_0_0_1_n_n : DotDims S100000x6 S6x16 S100000x16 where
  lhsContracting := [1]
  rhsContracting := [0]
  lhsNonContracting := [0]
  rhsNonContracting := [1]
  lhsBatch := []
  rhsBatch := []
  wf := dot_S100000x6_S6x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf

class Facts : Prop extends Facts₀ where

variable [Facts]
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«175763_j33844342293302_1_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«175763_j33844342293302_1_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibCatDot.lean ====
/-
  The host's linear layers without a positive part, as whole-array functions on the extended reals.

  A product plus a bias row broadcast in two steps is the linear layer `lin`; two products added, plus such a row,
  the two-product layer `lin2`. A product whose left operand is two blocks set side by side, plus such a bias row, is
  the two-product layer of the blocks against the top and the bottom row ranges of the weight (`rowsTop`,
  `rowsBot`): the sum over the contraction index splits at the seam, which uses only that addition of extended reals
  is associative and commutative, so it holds at infinite entries too. The two row ranges are also what the two
  unit-stride slices of the weight at row offsets `0` and `K` read.
-/
import Idealize.ShloMosaic.Lib.ValueIdx
import Idealize.ShloMosaic.Lib.Pipeline.Value
import Idealize.ShloMosaic.PureOps.Ideal.Laws
import proofs.«175763_j33844342293302_1_alg».proof.Proof.LibDense

noncomputable section

open scoped BigOperators

namespace Cert.Lib.CatDot

open Idealize.ShloMosaic Idealize.ShloMosaic.ValueIdx Cert.Lib.BiasDot Cert.Lib.Dense

variable {M K K' N : Nat}

/-- The first `K` rows of a matrix of `K + K'` rows. -/
def rowsTop (Wc : (⟨2, ![K + K', N]⟩ : Shape).Idx → EReal) : (⟨2, ![K, N]⟩ : Shape).Idx → EReal :=
  fun i => Wc (ix2 (Fin.castAdd K' (i 0)) (i 1))

/-- Its last `K'` rows. -/
def rowsBot (Wc : (⟨2, ![K + K', N]⟩ : Shape).Idx → EReal) : (⟨2, ![K', N]⟩ : Shape).Idx → EReal :=
  fun i => Wc (ix2 (Fin.natAdd K (i 0)) (i 1))

/-- The slice at row offset `0` is the first `K` rows. -/
theorem slice_rowsTop (Wc : (⟨2, ![K + K', N]⟩ : Shape).Idx → EReal)
    (hs1 : (⟨2, ![K + K', N]⟩ : Shape).Slices ![0, 0] ⟨2, ![K, N]⟩) :
    extractStridedSlice ⟨2, ![K, N]⟩ ![0, 0] Wc hs1 = rowsTop Wc := by
  funext i
  obtain ⟨k, q, rfl⟩ : ∃ (k : Fin K) (q : Fin N), i = ix2 k q := ⟨i 0, i 1, eq_ix2 i⟩
  exact slice_top Wc hs1 k q

/-- The slice at row offset `K` is the last `K'` rows. -/
theorem slice_rowsBot (Wc : (⟨2, ![K + K', N]⟩ : Shape).Idx → EReal)
    (hs2 : (⟨2, ![K + K', N]⟩ : Shape).Slices ![K, 0] ⟨2, ![K', N]⟩) :
    extractStridedSlice ⟨2, ![K', N]⟩ ![K, 0] Wc hs2 = rowsBot Wc := by
  funext i
  obtain ⟨k, q, rfl⟩ : ∃ (k : Fin K') (q : Fin N), i = ix2 k q := ⟨i 0, i 1, eq_ix2 i⟩
  exact slice_bot Wc hs2 k q

/-- The sum over the contraction index of the side-by-side operand against the weight splits at the seam into the two
    blocks' sums against the first and the last rows of the weight. -/
theorem sum_concat_rows (A : (⟨2, ![M, K]⟩ : Shape).Idx → EReal) (C : (⟨2, ![M, K']⟩ : Shape).Idx → EReal)
    (Wc : (⟨2, ![K + K', N]⟩ : Shape).Idx → EReal)
    (hcat : Shape.Concatenates [(⟨2, ![M, K]⟩ : Shape), ⟨2, ![M, K']⟩] ⟨2, ![M, K + K']⟩ 1) (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * rowsTop Wc (ix2 k q)) + (∑ k : Fin K', C (ix2 p k) * rowsBot Wc (ix2 k q)) := by
  rw [Fin.sum_univ_add]
  refine congrArg₂ (· + ·) (Finset.sum_congr rfl fun k _ => ?_) (Finset.sum_congr rfl fun k _ => ?_)
  · rw [concat_left]; rfl
  · rw [concat_right]; rfl

/-- The host's linear layer: product, bias broadcast in two steps, sum. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  subst hd
  funext i
  obtain ⟨p, q, rfl⟩ : ∃ (p : Fin M) (q : Fin N), i = ix2 p q := ⟨i 0, i 1, eq_ix2 i⟩
  rw [addf_apply, hostRow_apply]
  exact congrArg (fun z => z + B (ix1 q)) (Cert.Lib.PlainDot.dotGeneral_apply none _ X W p q)

/-- Two host products added, then a bias row broadcast in two steps added: the two-product layer. -/
theorem host_lin2 (d : DotDims ⟨2, ![M, K]⟩ ⟨2, ![K, N]⟩ ⟨2, ![M, N]⟩) (hd : d = DotDims.plain M K N)
    (d' : DotDims ⟨2, ![M, K']⟩ ⟨2, ![K', N]⟩ ⟨2, ![M, N]⟩) (hd' : d' = DotDims.plain M K' N)
    (A : FVec Ideal ⟨2, ![M, K]⟩ .f32) (Wa : FVec Ideal ⟨2, ![K, N]⟩ .f32)
    (C : FVec Ideal ⟨2, ![M, K']⟩ .f32) (Wb : FVec Ideal ⟨2, ![K', N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral d none A Wa) (Host.dotGeneral d' none C Wb))
        (broadcastInDim ⟨2, ![M, N]⟩ ![0, 1] h2 (broadcastInDim ⟨2, ![1, N]⟩ ![1] h1 B))
      = lin2 A Wa C Wb B := by
  subst hd
  subst hd'
  funext i
  obtain ⟨p, q, rfl⟩ : ∃ (p : Fin M) (q : Fin N), i = ix2 p q := ⟨i 0, i 1, eq_ix2 i⟩
  rw [addf_apply, addf_apply, hostRow_apply]
  exact congrArg₂ (fun y z => y + z + B (ix1 q)) (Cert.Lib.PlainDot.dotGeneral_apply none _ A Wa p q)
    (Cert.Lib.PlainDot.dotGeneral_apply none _ C Wb p q)

/-- The host's layer over a side-by-side operand: the concatenation against the whole weight, plus the bias row, is the
    two-product layer of the two blocks against the first and the last rows of the weight. -/
theorem host_concat_lin2 (d : DotDims ⟨2, ![M, K + K']⟩ ⟨2, ![K + K', N]⟩ ⟨2, ![M, N]⟩) (hd : d = DotDims.plain M (K + K') N)
    (A : FVec Ideal ⟨2, ![M, K]⟩ .f32) (C : FVec Ideal ⟨2, ![M, K']⟩ .f32) (Wc : FVec Ideal ⟨2, ![K + K', N]⟩ .f32)
    (B : FVec Ideal ⟨1, ![N]⟩ .f32)
    (hcat : Shape.Concatenates [(⟨2, ![M, K]⟩ : Shape), ⟨2, ![M, K']⟩] ⟨2, ![M, K + K']⟩ 1)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none
          (concatenate ⟨2, ![M, K + K']⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B))
    = lin2 A (rowsTop Wc) C (rowsBot Wc) B := by
  subst hd
  funext i
  obtain ⟨p, q, rfl⟩ : ∃ (p : Fin M) (q : Fin N), i = ix2 p q := ⟨i 0, i 1, eq_ix2 i⟩
  rw [addf_apply, hostRow_apply]
  refine congrArg (fun z => z + B (ix1 q)) ?_
  exact (Cert.Lib.PlainDot.dotGeneral_apply none _ _ Wc p q).trans (sum_concat_rows A C Wc hcat p q)

end Cert.Lib.CatDot

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«175763_j33844342293302_1_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibSage.lean ====
/-
  One mean-aggregation graph layer on the extended reals, as a whole-array function, and its two spellings.

  For `M` nodes with `K` input features: `A` holds each node's summed neighbour features, `v` an `M × 1` column
  (the reciprocal of the node's degree), `H` the nodes' own features, `Wl` and `Wr` two `K × N` weights and `b` a bias
  of length `N`. The layer's entry at node `p` and output feature `q` is

      max ((∑ k, (A (p, k) · v (p, 0)) · Wl (k, q)) + (∑ k, H (p, k) · Wr (k, q)) + b q) 0.

  `scaleRows A v` is the mean aggregation (each row of `A` times its entry of the column) and `sage` the layer; both
  are written over the two-product layer `lin2` and the positive part `relu` of the dense-layer module.

  * The host spells the layer as a column broadcast along the features, a product, two `dot_general`s, a sum, the bias
    broadcast in two steps, a sum and a maximum with a broadcast zero (`host_sage`).
  * A vector unit spells it on a block of rows as a column repeated along the lanes, a product, two matrix products of
    operands narrowed to a shorter float format into zero accumulators, a sum, a loaded `1 × N` bias row repeated down
    the rows, a sum and a maximum with a splat zero (`unit_sage`); a further product and bias row on top give the
    classifier head (`unit_head`). Narrowing is the identity on extended reals.
  * An entry of the layer depends on one row of `A`, `v` and `H` only, so a block of rows computes the entries of the
    whole array's layer at those rows (`sage_rows`, `head_rows`). No law beyond reading the same terms is used: the
    identities hold at infinite entries too.
-/
import Idealize.ShloMosaic.Lib.ValueIdx
import Idealize.ShloMosaic.Lib.Pipeline.Value
import Idealize.ShloMosaic.PureOps.Ideal.Laws
import proofs.«175763_j33844342293302_1_alg».proof.Proof.LibCatDot
import proofs.«175763_j33844342293302_1_alg».proof.Proof.LibRowLayers
import proofs.«175763_j33844342293302_1_alg».proof.Proof.LibColumn

noncomputable section

open scoped BigOperators

namespace Cert.Lib.Sage

open Idealize.ShloMosaic Idealize.ShloMosaic.ValueIdx Cert.Lib.BiasDot Cert.Lib.Dense Cert.Lib.RowLayers

variable {m M K N N' : Nat}

/-- Each row of a matrix times that row's entry of a column. -/
def scaleRows (A : (⟨2, ![M, K]⟩ : Shape).Idx → EReal) (v : (⟨2, ![M, 1]⟩ : Shape).Idx → EReal) :
    (⟨2, ![M, K]⟩ : Shape).Idx → EReal := fun i => A i * v (ix2 (i 0) (0 : Fin 1))

/-- The layer: the positive part of the scaled aggregate against `Wl`, plus the own features against `Wr`, plus the bias. -/
def sage (A : (⟨2, ![M, K]⟩ : Shape).Idx → EReal) (v : (⟨2, ![M, 1]⟩ : Shape).Idx → EReal)
    (H : (⟨2, ![M, K]⟩ : Shape).Idx → EReal) (Wl Wr : (⟨2, ![K, N]⟩ : Shape).Idx → EReal)
    (b : (⟨1, ![N]⟩ : Shape).Idx → EReal) : (⟨2, ![M, N]⟩ : Shape).Idx → EReal :=
  relu (lin2 (scaleRows A v) Wl H Wr b)

theorem sage_apply (A : (⟨2, ![M, K]⟩ : Shape).Idx → EReal) (v : (⟨2, ![M, 1]⟩ : Shape).Idx → EReal)
    (H : (⟨2, ![M, K]⟩ : Shape).Idx → EReal) (Wl Wr : (⟨2, ![K, N]⟩ : Shape).Idx → EReal)
    (b : (⟨1, ![N]⟩ : Shape).Idx → EReal) (p : Fin M) (q : Fin N) :
    sage A v H Wl Wr b (ix2 p q)
      = max (((∑ k : Fin K, (A (ix2 p k) * v (ix2 p (0 : Fin 1))) * Wl (ix2 k q))
          + (∑ k : Fin K, H (ix2 p k) * Wr (ix2 k q))) + b (ix1 q)) 0 := rfl

/-! ## The host's spelling -/

/-- An `M × 1` column broadcast along `K` columns reads, at `(p, k)`, the column at `(p, 0)`. -/
theorem hostCol_apply {α : Type} (v : (⟨2, ![M, 1]⟩ : Shape).Idx → α)
    (h : (⟨2, ![M, 1]⟩ : Shape).BroadcastsInDim ⟨2, ![M, K]⟩ ![0, 1]) (p : Fin M) (k : Fin K) :
    broadcastInDim ⟨2, ![M, K]⟩ ![0, 1] h v (ix2 p k) = v (ix2 p (0 : Fin 1)) := by
  refine broadcastInDim_apply ![0, 1] h v (ix2 p k) (ix2 p (0 : Fin 1)) (fun a => ?_)
  match a with
  | ⟨0, _⟩ =>
    show p.val = if M = 1 then 0 else p.val
    split
    · have := p.isLt; omega
    · rfl
  | ⟨1, _⟩ => exact (if_pos rfl).symm

/-- The host's mean aggregation: the aggregate times the column broadcast along the features. -/
theorem host_scaleRows (A : FVec Ideal ⟨2, ![M, K]⟩ .f32) (v : FVec Ideal ⟨2, ![M, 1]⟩ .f32)
    (h : (⟨2, ![M, 1]⟩ : Shape).BroadcastsInDim ⟨2, ![M, K]⟩ ![0, 1]) :
    mulf A (broadcastInDim ⟨2, ![M, K]⟩ ![0, 1] h v) = scaleRows A v := by
  funext i
  obtain ⟨p, k, rfl⟩ : ∃ (p : Fin M) (k : Fin K), i = ix2 p k := ⟨i 0, i 1, eq_ix2 i⟩
  rw [mulf_apply, hostCol_apply]
  rfl

/-- The host's layer. -/
theorem host_sage (d : DotDims ⟨2, ![M, K]⟩ ⟨2, ![K, N]⟩ ⟨2, ![M, N]⟩) (hd : d = DotDims.plain M K N)
    (A : FVec Ideal ⟨2, ![M, K]⟩ .f32) (v : FVec Ideal ⟨2, ![M, 1]⟩ .f32) (H : FVec Ideal ⟨2, ![M, K]⟩ .f32)
    (Wl Wr : FVec Ideal ⟨2, ![K, N]⟩ .f32) (b : FVec Ideal ⟨1, ![N]⟩ .f32)
    (hv : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (addf (Host.dotGeneral d none (mulf A (broadcastInDim ⟨2, ![M, K]⟩ ![0, 1] hv v)) Wl)
          (Host.dotGeneral d none H Wr))
        (broadcastInDim ⟨2, ![M, N]⟩ ![0, 1] h2 (broadcastInDim ⟨2, ![1, N]⟩ ![1] h1 b)))
      (broadcastInDim ⟨2, ![M, N]⟩ dims h0 (constant ⟨0, ![]⟩ .f32 0x00000000#32))
    = sage A v H Wl Wr b := by
  rw [host_scaleRows, Cert.Lib.CatDot.host_lin2 d hd d hd]
  funext i
  rw [maximumf_apply, hostZero_apply]
  rfl

/-! ## A vector unit's spelling, on a block of rows -/

/-- The body's layer: the aggregate times the column repeated along the lanes, two narrowed products into zero, the
    loaded bias row repeated down the rows, the maximum with a splat zero. -/
theorem unit_sage (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![M, 1]⟩ .f32) (x2 : FVec Ideal ⟨2, ![M, K]⟩ .f32)
    (x3 x4 : FVec Ideal ⟨2, ![K, N]⟩ .f32) (x5 : FVec Ideal ⟨2, ![1, N]⟩ .f32)
    (hb0 hb1 hb2 hb3 : FTy.bf16.bits < FTy.f32.bits)
    (hbc : (⟨2, ![M, 1]⟩ : Shape).Broadcasts ⟨2, ![M, K]⟩)
    (hc5 : (⟨2, ![1, N]⟩ : Shape).ShapeCasts ⟨2, ![1, N]⟩) (hbr : (⟨2, ![1, N]⟩ : Shape).Broadcasts ⟨2, ![M, N]⟩) :
    maximumf (addf (addf
          (FloatOps.matmul d none (truncf .bf16 (mulf x0 (broadcastTo ⟨2, ![M, K]⟩ x1 hbc)) hb0) (truncf .bf16 x3 hb1)
            (constant ⟨2, ![M, N]⟩ .f32 0x00000000#32))
          (FloatOps.matmul d none (truncf .bf16 x2 hb2) (truncf .bf16 x4 hb3) (constant ⟨2, ![M, N]⟩ .f32 0x00000000#32)))
        (broadcastTo ⟨2, ![M, N]⟩ (shapeCast ⟨2, ![1, N]⟩ x5 hc5) hbr))
      (broadcast ⟨2, ![M, N]⟩ (Scalar.ofBits (F := Ideal) .f32 0x00000000#32))
    = sage x0 x1 x2 x3 x4 (rowVec x5) := by
  subst hd
  funext i
  obtain ⟨p, q, rfl⟩ : ∃ (p : Fin M) (q : Fin N), i = ix2 p q := ⟨i 0, i 1, eq_ix2 i⟩
  rw [maximumf_apply, addf_apply, addf_apply, rowRepeat_apply, Cert.Lib.PlainDot.matmul_zero_apply,
    Cert.Lib.PlainDot.matmul_zero_apply, broadcast_apply]
  show max (((∑ k : Fin K, (x0 (ix2 p k) * broadcastTo ⟨2, ![M, K]⟩ x1 hbc (ix2 p k)) * x3 (ix2 k q))
      + (∑ k : Fin K, x2 (ix2 p k) * x4 (ix2 k q))) + x5 (ix2 (0 : Fin 1) q)) (Ideal.ofBits .f32 0x00000000#32) = _
  rw [Ideal.ofBits_zero_f32, sage_apply]
  refine congrArg (fun z => max ((z + (∑ k : Fin K, x2 (ix2 p k) * x4 (ix2 k q))) + x5 (ix2 (0 : Fin 1) q)) 0) ?_
  exact Finset.sum_congr rfl fun k _ => by rw [Cert.Lib.Column.colBroadcast_apply]

/-- The classifier head on top of the body's layer: a further narrowed product into zero plus a loaded bias row. -/
theorem unit_head (d : DotDims ⟨2, ![M, K]⟩ ⟨2, ![K, N]⟩ ⟨2, ![M, N]⟩) (hd : d = DotDims.plain M K N)
    (d' : DotDims ⟨2, ![M, N]⟩ ⟨2, ![N, N']⟩ ⟨2, ![M, N']⟩) (hd' : d' = DotDims.plain M N N')
    (x0 : FVec Ideal ⟨2, ![M, K]⟩ .f32) (x1 : FVec Ideal ⟨2, ![M, 1]⟩ .f32) (x2 : FVec Ideal ⟨2, ![M, K]⟩ .f32)
    (x3 x4 : FVec Ideal ⟨2, ![K, N]⟩ .f32) (x5 : FVec Ideal ⟨2, ![1, N]⟩ .f32)
    (x6 : FVec Ideal ⟨2, ![N, N']⟩ .f32) (x7 : FVec Ideal ⟨2, ![1, N']⟩ .f32)
    (hb0 hb1 hb2 hb3 hb4 hb5 : FTy.bf16.bits < FTy.f32.bits)
    (hbc : (⟨2, ![M, 1]⟩ : Shape).Broadcasts ⟨2, ![M, K]⟩)
    (hc5 : (⟨2, ![1, N]⟩ : Shape).ShapeCasts ⟨2, ![1, N]⟩) (hbr : (⟨2, ![1, N]⟩ : Shape).Broadcasts ⟨2, ![M, N]⟩)
    (hc7 : (⟨2, ![1, N']⟩ : Shape).ShapeCasts ⟨2, ![1, N']⟩) (hbr' : (⟨2, ![1, N']⟩ : Shape).Broadcasts ⟨2, ![M, N']⟩) :
    addf (FloatOps.matmul d' none (truncf .bf16
          (maximumf (addf (addf
              (FloatOps.matmul d none (truncf .bf16 (mulf x0 (broadcastTo ⟨2, ![M, K]⟩ x1 hbc)) hb0) (truncf .bf16 x3 hb1)
                (constant ⟨2, ![M, N]⟩ .f32 0x00000000#32))
              (FloatOps.matmul d none (truncf .bf16 x2 hb2) (truncf .bf16 x4 hb3) (constant ⟨2, ![M, N]⟩ .f32 0x00000000#32)))
            (broadcastTo ⟨2, ![M, N]⟩ (shapeCast ⟨2, ![1, N]⟩ x5 hc5) hbr))
          (broadcast ⟨2, ![M, N]⟩ (Scalar.ofBits (F := Ideal) .f32 0x00000000#32))) hb4)
        (truncf .bf16 x6 hb5) (constant ⟨2, ![M, N']⟩ .f32 0x00000000#32))
      (broadcastTo ⟨2, ![M, N']⟩ (shapeCast ⟨2, ![1, N']⟩ x7 hc7) hbr')
    = lin (sage x0 x1 x2 x3 x4 (rowVec x5)) x6 (rowVec x7) := by
  rw [unit_sage d hd x0 x1 x2 x3 x4 x5 hb0 hb1 hb2 hb3 hbc hc5 hbr]
  exact linLayer_eq d' hd' (sage x0 x1 x2 x3 x4 (rowVec x5)) x6 x7 hb4 hb5 hc7 hbr'

/-! ## A block of rows against the whole array -/

/-- An entry of the layer on a block of rows is the entry of the whole array's layer at the matching row and the same
    output feature: row `j 0` of the block's three row-indexed operands is row `i 0` of the array's. -/
theorem sage_rows (x0 : (⟨2, ![m, K]⟩ : Shape).Idx → EReal) (x1 : (⟨2, ![m, 1]⟩ : Shape).Idx → EReal)
    (x2 : (⟨2, ![m, K]⟩ : Shape).Idx → EReal)
    (A : (⟨2, ![M, K]⟩ : Shape).Idx → EReal) (v : (⟨2, ![M, 1]⟩ : Shape).Idx → EReal) (H : (⟨2, ![M, K]⟩ : Shape).Idx → EReal)
    (Wl Wr : (⟨2, ![K, N]⟩ : Shape).Idx → EReal) (b : (⟨1, ![N]⟩ : Shape).Idx → EReal)
    (p' : Fin m) (p : Fin M) (q : Fin N)
    (h0 : ∀ k : Fin K, x0 (ix2 p' k) = A (ix2 p k)) (h1 : x1 (ix2 p' (0 : Fin 1)) = v (ix2 p (0 : Fin 1)))
    (h2 : ∀ k : Fin K, x2 (ix2 p' k) = H (ix2 p k)) :
    sage x0 x1 x2 Wl Wr b (ix2 p' q) = sage A v H Wl Wr b (ix2 p q) := by
  rw [sage_apply, sage_apply, h1]
  simp only [h0, h2]

/-- The same for the classifier head on top of the layer. -/
theorem head_rows (x0 : (⟨2, ![m, K]⟩ : Shape).Idx → EReal) (x1 : (⟨2, ![m, 1]⟩ : Shape).Idx → EReal)
    (x2 : (⟨2, ![m, K]⟩ : Shape).Idx → EReal)
    (A : (⟨2, ![M, K]⟩ : Shape).Idx → EReal) (v : (⟨2, ![M, 1]⟩ : Shape).Idx → EReal) (H : (⟨2, ![M, K]⟩ : Shape).Idx → EReal)
    (Wl Wr : (⟨2, ![K, N]⟩ : Shape).Idx → EReal) (b : (⟨1, ![N]⟩ : Shape).Idx → EReal)
    (Wc : (⟨2, ![N, N']⟩ : Shape).Idx → EReal) (bc : (⟨1, ![N']⟩ : Shape).Idx → EReal)
    (p' : Fin m) (p : Fin M) (q : Fin N')
    (h0 : ∀ k : Fin K, x0 (ix2 p' k) = A (ix2 p k)) (h1 : x1 (ix2 p' (0 : Fin 1)) = v (ix2 p (0 : Fin 1)))
    (h2 : ∀ k : Fin K, x2 (ix2 p' k) = H (ix2 p k)) :
    lin (sage x0 x1 x2 Wl Wr b) Wc bc (ix2 p' q) = lin (sage A v H Wl Wr b) Wc bc (ix2 p q) := by
  rw [lin_apply, lin_apply]
  refine congrArg (fun z => z + bc (ix1 q)) (Finset.sum_congr rfl fun k _ => ?_)
  rw [sage_rows x0 x1 x2 A v H Wl Wr b p' p k h0 h1 h2]

end Cert.Lib.Sage

end
-- ==== Proof.RefSide.lean ====
/-
  The reference program's two results of interest as whole-array functions of the arguments, on the extended reals.

  The hidden features after the first layer (the program's value `%31`) are one mean-aggregation layer `sage` of the
  summed neighbour features `%22`, the reciprocal-degree column `%12`, the node features and the first layer's weights and
  bias. The program's result `%54` is the classifier head `lin` on top of the second layer, whose summed neighbour
  features `%41` are gathered and scattered from the hidden features. The gather and the scatter-add stay as the host
  spells them: the kernel's program runs the same two operations on its own hidden features.
-/
import proofs.«175763_j33844342293302_1_alg».proof.Proof.Gen.ReferenceIdeal.Read
import proofs.«175763_j33844342293302_1_alg».proof.Proof.LibSage

noncomputable section

namespace Cert.ReferenceIdeal.RefValue

open Cert.ReferenceIdeal Cert.ReferenceIdeal.Read Idealize.ShloMosaic Cert.Lib.Sage Cert.Lib.BiasDot

/-- The hidden features after the first layer. -/
theorem hidden_eq (x0 : (⟨S100000x6, .f32⟩ : BufTy).Contents (Elt Ideal)) (x1 : (⟨S2x3200000, .i32⟩ : BufTy).Contents (Elt Ideal))
    (x2 x3 : (⟨S6x16, .f32⟩ : BufTy).Contents (Elt Ideal)) (x4 : (⟨S16, .f32⟩ : BufTy).Contents (Elt Ideal)) :
    val_main_v31 (F := Ideal) x0 x1 x2 x3 x4
      = sage (val_main_v22 (F := Ideal) x0 x1) (val_main_v12 (F := Ideal) x1) x0 x2 x3 x4 := by
  unfold val_main_v31 val_main_v30 val_main_v27 val_main_v25 val_main_v26 val_main_v24 val_main_v23 val_main_v29
    val_main_v28 val_main_call0_v0 val_main_call0_cst
  exact host_sage dot_S100000x6_S6x16_S100000x16_1_0_0_1_n_n rfl _ _ _ _ _ _ _ _ _ _ _

/-- The program's result: the head on the second layer, over the hidden features `h` and their gathered-and-scattered sums. -/
theorem result_eq (x0 : (⟨S100000x6, .f32⟩ : BufTy).Contents (Elt Ideal)) (x1 : (⟨S2x3200000, .i32⟩ : BufTy).Contents (Elt Ideal))
    (x2 x3 : (⟨S6x16, .f32⟩ : BufTy).Contents (Elt Ideal)) (x4 : (⟨S16, .f32⟩ : BufTy).Contents (Elt Ideal))
    (x5 x6 : (⟨S16x16, .f32⟩ : BufTy).Contents (Elt Ideal)) (x7 : (⟨S16, .f32⟩ : BufTy).Contents (Elt Ideal))
    (x8 : (⟨S16x8, .f32⟩ : BufTy).Contents (Elt Ideal)) (x9 : (⟨S8, .f32⟩ : BufTy).Contents (Elt Ideal)) :
    val_main_v54 (F := Ideal) x0 x1 x2 x3 x4 x5 x6 x7 x8 x9
      = lin (sage (val_main_v41 (F := Ideal) x0 x1 x2 x3 x4) (val_main_v12 (F := Ideal) x1)
          (val_main_v31 (F := Ideal) x0 x1 x2 x3 x4) x5 x6 x7) x8 x9 := by
  unfold val_main_v54 val_main_v51 val_main_v53 val_main_v52 val_main_v50 val_main_v49 val_main_v46 val_main_v44 val_main_v45
    val_main_v43 val_main_v42 val_main_v48 val_main_v47 val_main_call1_v0 val_main_call1_cst
  rw [host_sage dot_S100000x16_S16x16_S100000x16_1_0_0_1_n_n rfl]
  exact Cert.Lib.CatDot.host_lin dot_S100000x16_S16x8_S100000x8_1_0_0_1_n_n rfl _ _ _ _ _

/-- The neighbours' sums of a hidden-feature array `h`: its rows gathered at the edges' sources and scatter-added at the
    edges' targets, as the host spells the two operations from the edge table `x1`. -/
def aggHidden (h : (⟨S100000x16, .f32⟩ : BufTy).Contents (Elt Ideal)) (x1 : (⟨S2x3200000, .i32⟩ : BufTy).Contents (Elt Ideal)) :
    (⟨S100000x16, .f32⟩ : BufTy).Contents (Elt Ideal) :=
  Host.scatterAdd (F := Ideal) (φ := .f32) scatter_S100000x16_S3200000x1_S3200000x16_1_0_0_1 (val_main_v39 (F := Ideal))
    (val_main_v40 (F := Ideal) x1)
    (Host.gather gather_S100000x16_S3200000x1_S3200000x16_1_0_n_n_0_1_116 h (val_main_v37 (F := Ideal) x1))

/-- The first layer's hidden features as a function of the arguments. -/
def hidden (x0 : (⟨S100000x6, .f32⟩ : BufTy).Contents (Elt Ideal)) (x1 : (⟨S2x3200000, .i32⟩ : BufTy).Contents (Elt Ideal))
    (x2 x3 : (⟨S6x16, .f32⟩ : BufTy).Contents (Elt Ideal)) (x4 : (⟨S16, .f32⟩ : BufTy).Contents (Elt Ideal)) :
    (⟨S100000x16, .f32⟩ : BufTy).Contents (Elt Ideal) :=
  sage (val_main_v22 (F := Ideal) x0 x1) (val_main_v12 (F := Ideal) x1) x0 x2 x3 x4

/-- THE NETWORK as one function of the ten arguments: the head on the second layer over the first layer's hidden
    features and their neighbours' sums. -/
def net (x0 : (⟨S100000x6, .f32⟩ : BufTy).Contents (Elt Ideal)) (x1 : (⟨S2x3200000, .i32⟩ : BufTy).Contents (Elt Ideal))
    (x2 x3 : (⟨S6x16, .f32⟩ : BufTy).Contents (Elt Ideal)) (x4 : (⟨S16, .f32⟩ : BufTy).Contents (Elt Ideal))
    (x5 x6 : (⟨S16x16, .f32⟩ : BufTy).Contents (Elt Ideal)) (x7 : (⟨S16, .f32⟩ : BufTy).Contents (Elt Ideal))
    (x8 : (⟨S16x8, .f32⟩ : BufTy).Contents (Elt Ideal)) (x9 : (⟨S8, .f32⟩ : BufTy).Contents (Elt Ideal)) :
    (⟨S100000x8, .f32⟩ : BufTy).Contents (Elt Ideal) :=
  lin (sage (aggHidden (hidden x0 x1 x2 x3 x4) x1) (val_main_v12 (F := Ideal) x1) (hidden x0 x1 x2 x3 x4) x5 x6 x7) x8 x9

/-- The reference program's result is the network of its arguments. -/
theorem net_eq (x0 : (⟨S100000x6, .f32⟩ : BufTy).Contents (Elt Ideal)) (x1 : (⟨S2x3200000, .i32⟩ : BufTy).Contents (Elt Ideal))
    (x2 x3 : (⟨S6x16, .f32⟩ : BufTy).Contents (Elt Ideal)) (x4 : (⟨S16, .f32⟩ : BufTy).Contents (Elt Ideal))
    (x5 x6 : (⟨S16x16, .f32⟩ : BufTy).Contents (Elt Ideal)) (x7 : (⟨S16, .f32⟩ : BufTy).Contents (Elt Ideal))
    (x8 : (⟨S16x8, .f32⟩ : BufTy).Contents (Elt Ideal)) (x9 : (⟨S8, .f32⟩ : BufTy).Contents (Elt Ideal)) :
    val_main_v54 (F := Ideal) x0 x1 x2 x3 x4 x5 x6 x7 x8 x9 = net x0 x1 x2 x3 x4 x5 x6 x7 x8 x9 := by
  rw [result_eq]
  have e : val_main_v41 (F := Ideal) x0 x1 x2 x3 x4 = aggHidden (val_main_v31 (F := Ideal) x0 x1 x2 x3 x4) x1 := rfl
  rw [e, hidden_eq]
  rfl

end Cert.ReferenceIdeal.RefValue

end
-- ==== Proof.KerLayer1.lean ====
/-
  The first region of the kernel's program: what its output array holds when the region is left.

  The region walks the 100000 nodes in 10 blocks of 10000 rows. At a block the body computes one mean-aggregation
  layer `sage` of the block's rows of the summed neighbour features, of the reciprocal-degree column and of the node
  features, with the two 6 × 16 weights and the 1 × 16 bias row whole. An entry of the layer depends on one row only, so
  the block's result is the block of the whole arrays' layer; the 10 blocks tile the array, so the array ends holding
  that layer. Everything is stated at the contents `V` the region is entered with.
-/
import proofs.«175763_j33844342293302_1_alg».proof.Proof.Gen.KernelIdeal.Frame
import proofs.«175763_j33844342293302_1_alg».proof.Proof.LibSage
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.Sage Cert.Lib.BiasDot Cert.Lib.RowLayers

variable (V : (c : Dev nD) → (b : Ref sig .tc) → Buf (Elt Ideal) ((c : Thread nD τ).loc b))

theorem zeros2 : (![0, 0] : Fin 2 → Nat) = fun _ => 0 := funext fun a => by fin_cases a <;> rfl

/-- The body's stored value is the layer of its loaded blocks. -/
theorem body0_eq (x0 : Vec Ideal S10000x6 .f32) (x1 : Vec Ideal S10000x1 .f32) (x3 : Vec Ideal S6x16 .f32)
    (x2 : Vec Ideal S10000x6 .f32) (x4 : Vec Ideal S6x16 .f32) (x5 : Vec Ideal S1x16 .f32) :
    k0_pay1 x0 x1 x3 x2 x4 x5 = sage x0 x1 x2 x3 x4 (rowVec x5) := by
  unfold k0_pay1
  dsimp only
  rw [shapeCast_self x0, shapeCast_self x1]
  exact unit_sage dot_S10000x6_S6x16_S10000x16_1_0_0_1_n_n rfl x0 x1 x2 x3 x4 x5 _ _ _ _ _ _ _

/-- The layer on a block of 10000 rows that sits at row offset `o · 10000` of the arrays: entry `j` of the block's layer is
    entry `i` of the arrays' layer when `i` is `j` moved down by the offset. -/
theorem layer1_block (x0 : Vec Ideal S10000x6 .f32) (x1 : Vec Ideal S10000x1 .f32) (x2 : Vec Ideal S10000x6 .f32)
    (A : Vec Ideal S100000x6 .f32) (v : Vec Ideal S100000x1 .f32) (H : Vec Ideal S100000x6 .f32)
    (Wl Wr : Vec Ideal S6x16 .f32) (b : Vec Ideal S16 .f32)
    (o : Nat) (j : S10000x16.Idx) (i : S100000x16.Idx)
    (hi0 : (i 0).val = o * 10000 + (j 0).val) (hi1 : (i 1).val = (j 1).val)
    (h0 : ∀ (y : S10000x6.Idx) (z : S100000x6.Idx), (z 0).val = o * 10000 + (y 0).val → (z 1).val = (y 1).val → x0 y = A z)
    (h1 : ∀ (y : S10000x1.Idx) (z : S100000x1.Idx), (z 0).val = o * 10000 + (y 0).val → (z 1).val = (y 1).val → x1 y = v z)
    (h2 : ∀ (y : S10000x6.Idx) (z : S100000x6.Idx), (z 0).val = o * 10000 + (y 0).val → (z 1).val = (y 1).val → x2 y = H z) :
    sage x0 x1 x2 Wl Wr b j = sage A v H Wl Wr b i := by
  obtain ⟨p', q, rfl⟩ : ∃ (p' : Fin 10000) (q : Fin 16), j = ix2 p' q := ⟨j 0, j 1, eq_ix2 j⟩
  obtain ⟨p, q', rfl⟩ : ∃ (p : Fin 100000) (q' : Fin 16), i = ix2 p q' := ⟨i 0, i 1, eq_ix2 i⟩
  have hp : p.val = o * 10000 + p'.val := hi0
  obtain rfl : q = q' := Fin.ext hi1.symm
  exact sage_rows x0 x1 x2 A v H Wl Wr b p' p q (fun k => h0 _ _ hp rfl) (h1 _ _ hp rfl) (fun k => h2 _ _ hp rfl)

/-- The printed index maps over the 10 points: the three row-blocked inputs move with the output, the weights and the
    bias row stay at block 0, and the output's block index is the point's number. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The first weight's block is the whole weight at every point. -/
theorem wl0 (c : Dev nD) (t : Fin cfg0.N) : (iblk0 V c 3 t : Vec Ideal S6x16 .f32) = V c main_arg2 := by
  obtain ⟨-, -, -, -, -, -, e0, e1, -⟩ := idx_facts0 t
  funext y
  show V c main_arg2 (((cfg0.win 3).blk t).view.emb y) = V c main_arg2 y
  refine congrArg (V c main_arg2) ?_
  funext a; apply Fin.ext
  match a with
  | ⟨0, _⟩ => show win0_3.index t (0 : Fin 2) * 6 + 1 * (y 0).val = (y 0).val; omega
  | ⟨1, _⟩ => show win0_3.index t (1 : Fin 2) * 16 + 1 * (y 1).val = (y 1).val; omega

/-- The second weight's block is the whole weight at every point. -/
theorem wr0 (c : Dev nD) (t : Fin cfg0.N) : (iblk0 V c 4 t : Vec Ideal S6x16 .f32) = V c main_arg3 := by
  obtain ⟨-, -, -, -, -, -, -, -, e0, e1, -⟩ := idx_facts0 t
  funext y
  show V c main_arg3 (((cfg0.win 4).blk t).view.emb y) = V c main_arg3 y
  refine congrArg (V c main_arg3) ?_
  funext a; apply Fin.ext
  match a with
  | ⟨0, _⟩ => show win0_4.index t (0 : Fin 2) * 6 + 1 * (y 0).val = (y 0).val; omega
  | ⟨1, _⟩ => show win0_4.index t (1 : Fin 2) * 16 + 1 * (y 1).val = (y 1).val; omega

/-- The bias row's block is the whole row at every point. -/
theorem brow0 (c : Dev nD) (t : Fin cfg0.N) : (iblk0 V c 5 t : Vec Ideal S1x16 .f32) = V c main_v23 := by
  obtain ⟨-, -, -, -, -, -, -, -, -, -, e0, e1, -⟩ := idx_facts0 t
  funext y
  show V c main_v23 (((cfg0.win 5).blk t).view.emb y) = V c main_v23 y
  refine congrArg (V c main_v23) ?_
  funext a; apply Fin.ext
  match a with
  | ⟨0, _⟩ => show win0_5.index t (0 : Fin 2) * 1 + 1 * (y 0).val = (y 0).val; omega
  | ⟨1, _⟩ => show win0_5.index t (1 : Fin 2) * 16 + 1 * (y 1).val = (y 1).val; omega

/-- What point `t` writes back is block `t` of the whole arrays' layer. -/
theorem flushed0_eq (c : Dev nD) (t : Fin cfg0.N) :
    (dat0 V c).flushed 6 t = ((cfg0.win 6).blk t).view.read (Elt Ideal)
      (sage (V c main_v22) (V c main_v12) (V c main_arg0) (V c main_arg2) (V c main_arg3) (rowVec (V c main_v23))) := by
  show (cfg0.win 6).cut (grid0.coords t) ((dat0 V c).after 6 t) = _
  rw [after0_6]
  unfold out0_6
  rw [View.canon_unit_zero zeros2]
  simp only [View.ld_unit_zero (S := S10000x6) zeros2, View.ld_unit_zero (S := S10000x1) zeros2,
    View.ld_unit_zero (S := S6x16) zeros2, View.ld_unit_zero (S := S1x16) zeros2]
  rw [body0_eq, wl0 V c t, wr0 V c t, brow0 V c t]
  obtain ⟨a0, a1, b0, b1, c0, c1, -, -, -, -, -, -, o0, o1⟩ := idx_facts0 t
  funext j
  show sage (iblk0 V c 0 t) (iblk0 V c 1 t) (iblk0 V c 2 t) (V c main_arg2) (V c main_arg3) (rowVec (V c main_v23)) j
    = sage (V c main_v22) (V c main_v12) (V c main_arg0) (V c main_arg2) (V c main_arg3) (rowVec (V c main_v23))
        (((cfg0.win 6).blk t).view.emb j)
  refine layer1_block _ _ _ _ _ _ _ _ _ t.val j _ ?_ ?_ (fun y z hz0 hz1 => ?_) (fun y z hz0 hz1 => ?_) (fun y z hz0 hz1 => ?_)
  · show win0_6.index t (0 : Fin 2) * 10000 + 1 * (j 0).val = t.val * 10000 + (j 0).val; omega
  · show win0_6.index t (1 : Fin 2) * 16 + 1 * (j 1).val = (j 1).val; omega
  · show V c main_v22 (((cfg0.win 0).blk t).view.emb y) = V c main_v22 z
    refine congrArg (V c main_v22) ?_
    funext a; apply Fin.ext
    match a with
    | ⟨0, _⟩ => show win0_0.index t (0 : Fin 2) * 10000 + 1 * (y 0).val = (z 0).val; omega
    | ⟨1, _⟩ => show win0_0.index t (1 : Fin 2) * 6 + 1 * (y 1).val = (z 1).val; omega
  · show V c main_v12 (((cfg0.win 1).blk t).view.emb y) = V c main_v12 z
    refine congrArg (V c main_v12) ?_
    funext a; apply Fin.ext
    match a with
    | ⟨0, _⟩ => show win0_1.index t (0 : Fin 2) * 10000 + 1 * (y 0).val = (z 0).val; omega
    | ⟨1, _⟩ => show win0_1.index t (1 : Fin 2) * 1 + 1 * (y 1).val = (z 1).val; omega
  · show V c main_arg0 (((cfg0.win 2).blk t).view.emb y) = V c main_arg0 z
    refine congrArg (V c main_arg0) ?_
    funext a; apply Fin.ext
    match a with
    | ⟨0, _⟩ => show win0_2.index t (0 : Fin 2) * 10000 + 1 * (y 0).val = (z 0).val; omega
    | ⟨1, _⟩ => show win0_2.index t (1 : Fin 2) * 6 + 1 * (y 1).val = (z 1).val; omega

/-- An index of the output array is in point `t`'s block iff each coordinate is in the block's range on its axis. -/
theorem mem_blk0 (t : Fin cfg0.N) (i : S100000x16.Idx) :
    i ∈ ((cfg0.win 6).blk t).view.set ↔ ∀ a : Fin 2, win0_6.index t a * S10000x16.size a ≤ (i a).val
      ∧ (i a).val < win0_6.index t a * S10000x16.size a + S10000x16.size a := by
  show i ∈ ((View.whole main_v24).slice (win0_6.rect t)).set ↔ _
  rw [View.set_slice_whole, Rect.mem_set_unit]
  exact Iff.rfl

/-- Every row of the output array is in the block of the point numbered by the row's ten-thousands. -/
theorem cover0 (i : S100000x16.Idx) :
    ∃ t : Fin cfg0.N, (cfg0.win 6).flush t = true ∧ i ∈ ((cfg0.win 6).blk t).view.set := by
  have hi0 : (i 0).val < 100000 := (i 0).isLt
  have hi1 : (i 1).val < 16 := (i 1).isLt
  have hN : grid0.N = 10 := N_0
  let t : Fin cfg0.N := ⟨(i 0).val / 10000, by show (i 0).val / 10000 < grid0.N; omega⟩
  refine ⟨t, flush0_6 t, ?_⟩
  obtain ⟨-, -, -, -, -, -, -, -, -, -, -, -, o0, o1⟩ := idx_facts0 t
  have ht : t.val = (i 0).val / 10000 := rfl
  rw [mem_blk0]
  intro a
  match a with
  | ⟨0, _⟩ =>
    show win0_6.index t (0 : Fin 2) * 10000 ≤ (i 0).val ∧ (i 0).val < win0_6.index t (0 : Fin 2) * 10000 + 10000
    omega
  | ⟨1, _⟩ =>
    show win0_6.index t (1 : Fin 2) * 16 ≤ (i 1).val ∧ (i 1).val < win0_6.index t (1 : Fin 2) * 16 + 16
    omega

/-- THE REGION'S OUTPUT: the hidden-feature array is the layer of the arrays the region is entered with. -/
theorem hidden_array (c : Dev nD) :
    (dat0 V c).arrAt 6 cfg0.N
      = sage (V c main_v22) (V c main_v12) (V c main_arg0) (V c main_arg2) (V c main_arg3) (rowVec (V c main_v23)) :=
  (dat0 V c).arrAt_eq_of_cover 6 _ (fun t _ => flushed0_eq V c t) cover0

end Cert.KernelIdeal.KValue

end
-- ==== Proof.KerLayer2.lean ====
/-
  The second region of the kernel's program: what its output array holds when the region is left.

  The region walks the 100000 nodes in 10 blocks of 10000 rows. At a block the body computes the second mean-aggregation
  layer `sage` of the block's rows of the summed hidden features of the neighbours, of the reciprocal-degree column and of
  the hidden features, with the two 16 × 16 weights and the 1 × 16 bias row whole, and on top of it the classifier head
  `lin` with the 16 × 8 weight and the 1 × 8 bias row. An entry of the result depends on one row only, so the block's
  result is the block of the whole arrays' result; the 10 blocks tile the array, so the array ends holding it.
  Everything is stated at the contents `V` the region is entered with.
-/
import proofs.«175763_j33844342293302_1_alg».proof.Proof.KerLayer1

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.Sage Cert.Lib.BiasDot Cert.Lib.RowLayers

variable (V : (c : Dev nD) → (b : Ref sig .tc) → Buf (Elt Ideal) ((c : Thread nD τ).loc b))

/-- The body's stored value is the head on the layer of its loaded blocks. -/
theorem body1_eq (x0 : Vec Ideal S10000x16 .f32) (x1 : Vec Ideal S10000x1 .f32) (x3 : Vec Ideal S16x16 .f32)
    (x2 : Vec Ideal S10000x16 .f32) (x4 : Vec Ideal S16x16 .f32) (x5 : Vec Ideal S1x16 .f32)
    (x6 : Vec Ideal S16x8 .f32) (x7 : Vec Ideal S1x8 .f32) :
    k1_pay1 x0 x1 x3 x2 x4 x5 x6 x7 = lin (sage x0 x1 x2 x3 x4 (rowVec x5)) x6 (rowVec x7) := by
  unfold k1_pay1
  dsimp only
  rw [shapeCast_self x0, shapeCast_self x1, shapeCast_self x2]
  exact unit_head dot_S10000x16_S16x16_S10000x16_1_0_0_1_n_n rfl dot_S10000x16_S16x8_S10000x8_1_0_0_1_n_n rfl
    x0 x1 x2 x3 x4 x5 x6 x7 _ _ _ _ _ _ _ _ _ _ _

/-- The result on a block of 10000 rows that sits at row offset `o · 10000` of the arrays: entry `j` of the block's result
    is entry `i` of the arrays' result when `i` is `j` moved down by the offset. -/
theorem head_block (x0 : Vec Ideal S10000x16 .f32) (x1 : Vec Ideal S10000x1 .f32) (x2 : Vec Ideal S10000x16 .f32)
    (A : Vec Ideal S100000x16 .f32) (v : Vec Ideal S100000x1 .f32) (H : Vec Ideal S100000x16 .f32)
    (Wl Wr : Vec Ideal S16x16 .f32) (b : Vec Ideal S16 .f32) (Wc : Vec Ideal S16x8 .f32) (bc : Vec Ideal S8 .f32)
    (o : Nat) (j : S10000x8.Idx) (i : S100000x8.Idx)
    (hi0 : (i 0).val = o * 10000 + (j 0).val) (hi1 : (i 1).val = (j 1).val)
    (h0 : ∀ (y : S10000x16.Idx) (z : S100000x16.Idx), (z 0).val = o * 10000 + (y 0).val → (z 1).val = (y 1).val → x0 y = A z)
    (h1 : ∀ (y : S10000x1.Idx) (z : S100000x1.Idx), (z 0).val = o * 10000 + (y 0).val → (z 1).val = (y 1).val → x1 y = v z)
    (h2 : ∀ (y : S10000x16.Idx) (z : S100000x16.Idx), (z 0).val = o * 10000 + (y 0).val → (z 1).val = (y 1).val → x2 y = H z) :
    lin (sage x0 x1 x2 Wl Wr b) Wc bc j = lin (sage A v H Wl Wr b) Wc bc i := by
  obtain ⟨p', q, rfl⟩ : ∃ (p' : Fin 10000) (q : Fin 8), j = ix2 p' q := ⟨j 0, j 1, eq_ix2 j⟩
  obtain ⟨p, q', rfl⟩ : ∃ (p : Fin 100000) (q' : Fin 8), i = ix2 p q' := ⟨i 0, i 1, eq_ix2 i⟩
  have hp : p.val = o * 10000 + p'.val := hi0
  obtain rfl : q = q' := Fin.ext hi1.symm
  exact head_rows x0 x1 x2 A v H Wl Wr b Wc bc p' p q (fun k => h0 _ _ hp rfl) (h1 _ _ hp rfl) (fun k => h2 _ _ hp rfl)

/-- The printed index maps over the 10 points: the three row-blocked inputs move with the output, the weights and the
    bias rows stay at block 0, and the output's block index is the point's number. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The first weight's block is the whole weight at every point. -/
theorem wl1 (c : Dev nD) (t : Fin cfg1.N) : (iblk1 V c 3 t : Vec Ideal S16x16 .f32) = V c main_arg5 := by
  obtain ⟨-, -, -, -, -, -, e0, e1, -⟩ := idx_facts1 t
  funext y
  show V c main_arg5 (((cfg1.win 3).blk t).view.emb y) = V c main_arg5 y
  refine congrArg (V c main_arg5) ?_
  funext a; apply Fin.ext
  match a with
  | ⟨0, _⟩ => show win1_3.index t (0 : Fin 2) * 16 + 1 * (y 0).val = (y 0).val; omega
  | ⟨1, _⟩ => show win1_3.index t (1 : Fin 2) * 16 + 1 * (y 1).val = (y 1).val; omega

/-- The second weight's block is the whole weight at every point. -/
theorem wr1 (c : Dev nD) (t : Fin cfg1.N) : (iblk1 V c 4 t : Vec Ideal S16x16 .f32) = V c main_arg6 := by
  obtain ⟨-, -, -, -, -, -, -, -, e0, e1, -⟩ := idx_facts1 t
  funext y
  show V c main_arg6 (((cfg1.win 4).blk t).view.emb y) = V c main_arg6 y
  refine congrArg (V c main_arg6) ?_
  funext a; apply Fin.ext
  match a with
  | ⟨0, _⟩ => show win1_4.index t (0 : Fin 2) * 16 + 1 * (y 0).val = (y 0).val; omega
  | ⟨1, _⟩ => show win1_4.index t (1 : Fin 2) * 16 + 1 * (y 1).val = (y 1).val; omega

/-- The layer's bias row's block is the whole row at every point. -/
theorem brow1 (c : Dev nD) (t : Fin cfg1.N) : (iblk1 V c 5 t : Vec Ideal S1x16 .f32) = V c main_v35 := by
  obtain ⟨-, -, -, -, -, -, -, -, -, -, e0, e1, -⟩ := idx_facts1 t
  funext y
  show V c main_v35 (((cfg1.win 5).blk t).view.emb y) = V c main_v35 y
  refine congrArg (V c main_v35) ?_
  funext a; apply Fin.ext
  match a with
  | ⟨0, _⟩ => show win1_5.index t (0 : Fin 2) * 1 + 1 * (y 0).val = (y 0).val; omega
  | ⟨1, _⟩ => show win1_5.index t (1 : Fin 2) * 16 + 1 * (y 1).val = (y 1).val; omega

/-- The head's weight's block is the whole weight at every point. -/
theorem wc1 (c : Dev nD) (t : Fin cfg1.N) : (iblk1 V c 6 t : Vec Ideal S16x8 .f32) = V c main_arg8 := by
  obtain ⟨-, -, -, -, -, -, -, -, -, -, -, -, e0, e1, -⟩ := idx_facts1 t
  funext y
  show V c main_arg8 (((cfg1.win 6).blk t).view.emb y) = V c main_arg8 y
  refine congrArg (V c main_arg8) ?_
  funext a; apply Fin.ext
  match a with
  | ⟨0, _⟩ => show win1_6.index t (0 : Fin 2) * 16 + 1 * (y 0).val = (y 0).val; omega
  | ⟨1, _⟩ => show win1_6.index t (1 : Fin 2) * 8 + 1 * (y 1).val = (y 1).val; omega

/-- The head's bias row's block is the whole row at every point. -/
theorem bcrow1 (c : Dev nD) (t : Fin cfg1.N) : (iblk1 V c 7 t : Vec Ideal S1x8 .f32) = V c main_v36 := by
  obtain ⟨-, -, -, -, -, -, -, -, -, -, -, -, -, -, e0, e1, -⟩ := idx_facts1 t
  funext y
  show V c main_v36 (((cfg1.win 7).blk t).view.emb y) = V c main_v36 y
  refine congrArg (V c main_v36) ?_
  funext a; apply Fin.ext
  match a with
  | ⟨0, _⟩ => show win1_7.index t (0 : Fin 2) * 1 + 1 * (y 0).val = (y 0).val; omega
  | ⟨1, _⟩ => show win1_7.index t (1 : Fin 2) * 8 + 1 * (y 1).val = (y 1).val; omega

/-- What point `t` writes back is block `t` of the whole arrays' result. -/
theorem flushed1_eq (c : Dev nD) (t : Fin cfg1.N) :
    (dat1 V c).flushed 8 t = ((cfg1.win 8).blk t).view.read (Elt Ideal)
      (lin (sage (V c main_v34) (V c main_v12) (V c main_v24) (V c main_arg5) (V c main_arg6) (rowVec (V c main_v35)))
        (V c main_arg8) (rowVec (V c main_v36))) := by
  show (cfg1.win 8).cut (grid1.coords t) ((dat1 V c).after 8 t) = _
  rw [after1_8]
  unfold out1_8
  rw [View.canon_unit_zero zeros2]
  simp only [View.ld_unit_zero (S := S10000x16) zeros2, View.ld_unit_zero (S := S10000x1) zeros2,
    View.ld_unit_zero (S := S16x16) zeros2, View.ld_unit_zero (S := S1x16) zeros2,
    View.ld_unit_zero (S := S16x8) zeros2, View.ld_unit_zero (S := S1x8) zeros2]
  rw [body1_eq, wl1 V c t, wr1 V c t, brow1 V c t, wc1 V c t, bcrow1 V c t]
  obtain ⟨a0, a1, b0, b1, c0, c1, -, -, -, -, -, -, -, -, -, -, o0, o1⟩ := idx_facts1 t
  funext j
  show lin (sage (iblk1 V c 0 t) (iblk1 V c 1 t) (iblk1 V c 2 t) (V c main_arg5) (V c main_arg6) (rowVec (V c main_v35)))
      (V c main_arg8) (rowVec (V c main_v36)) j
    = lin (sage (V c main_v34) (V c main_v12) (V c main_v24) (V c main_arg5) (V c main_arg6) (rowVec (V c main_v35)))
        (V c main_arg8) (rowVec (V c main_v36)) (((cfg1.win 8).blk t).view.emb j)
  refine head_block _ _ _ _ _ _ _ _ _ _ _ t.val j _ ?_ ?_ (fun y z hz0 hz1 => ?_) (fun y z hz0 hz1 => ?_) (fun y z hz0 hz1 => ?_)
  · show win1_8.index t (0 : Fin 2) * 10000 + 1 * (j 0).val = t.val * 10000 + (j 0).val; omega
  · show win1_8.index t (1 : Fin 2) * 8 + 1 * (j 1).val = (j 1).val; omega
  · show V c main_v34 (((cfg1.win 0).blk t).view.emb y) = V c main_v34 z
    refine congrArg (V c main_v34) ?_
    funext a; apply Fin.ext
    match a with
    | ⟨0, _⟩ => show win1_0.index t (0 : Fin 2) * 10000 + 1 * (y 0).val = (z 0).val; omega
    | ⟨1, _⟩ => show win1_0.index t (1 : Fin 2) * 16 + 1 * (y 1).val = (z 1).val; omega
  · show V c main_v12 (((cfg1.win 1).blk t).view.emb y) = V c main_v12 z
    refine congrArg (V c main_v12) ?_
    funext a; apply Fin.ext
    match a with
    | ⟨0, _⟩ => show win1_1.index t (0 : Fin 2) * 10000 + 1 * (y 0).val = (z 0).val; omega
    | ⟨1, _⟩ => show win1_1.index t (1 : Fin 2) * 1 + 1 * (y 1).val = (z 1).val; omega
  · show V c main_v24 (((cfg1.win 2).blk t).view.emb y) = V c main_v24 z
    refine congrArg (V c main_v24) ?_
    funext a; apply Fin.ext
    match a with
    | ⟨0, _⟩ => show win1_2.index t (0 : Fin 2) * 10000 + 1 * (y 0).val = (z 0).val; omega
    | ⟨1, _⟩ => show win1_2.index t (1 : Fin 2) * 16 + 1 * (y 1).val = (z 1).val; omega

/-- An index of the output array is in point `t`'s block iff each coordinate is in the block's range on its axis. -/
theorem mem_blk1 (t : Fin cfg1.N) (i : S100000x8.Idx) :
    i ∈ ((cfg1.win 8).blk t).view.set ↔ ∀ a : Fin 2, win1_8.index t a * S10000x8.size a ≤ (i a).val
      ∧ (i a).val < win1_8.index t a * S10000x8.size a + S10000x8.size a := by
  show i ∈ ((View.whole main_v37).slice (win1_8.rect t)).set ↔ _
  rw [View.set_slice_whole, Rect.mem_set_unit]
  exact Iff.rfl

/-- Every row of the output array is in the block of the point numbered by the row's ten-thousands. -/
theorem cover1 (i : S100000x8.Idx) :
    ∃ t : Fin cfg1.N, (cfg1.win 8).flush t = true ∧ i ∈ ((cfg1.win 8).blk t).view.set := by
  have hi0 : (i 0).val < 100000 := (i 0).isLt
  have hi1 : (i 1).val < 8 := (i 1).isLt
  have hN : grid1.N = 10 := N_1
  let t : Fin cfg1.N := ⟨(i 0).val / 10000, by show (i 0).val / 10000 < grid1.N; omega⟩
  refine ⟨t, flush1_8 t, ?_⟩
  obtain ⟨-, -, -, -, -, -, -, -, -, -, -, -, -, -, -, -, o0, o1⟩ := idx_facts1 t
  have ht : t.val = (i 0).val / 10000 := rfl
  rw [mem_blk1]
  intro a
  match a with
  | ⟨0, _⟩ =>
    show win1_8.index t (0 : Fin 2) * 10000 ≤ (i 0).val ∧ (i 0).val < win1_8.index t (0 : Fin 2) * 10000 + 10000
    omega
  | ⟨1, _⟩ =>
    show win1_8.index t (1 : Fin 2) * 8 ≤ (i 1).val ∧ (i 1).val < win1_8.index t (1 : Fin 2) * 8 + 8
    omega

/-- THE REGION'S OUTPUT: the result array is the head on the second layer of the arrays the region is entered with. -/
theorem result_array (c : Dev nD) :
    (dat1 V c).arrAt 8 cfg1.N
      = lin (sage (V c main_v34) (V c main_v12) (V c main_v24) (V c main_arg5) (V c main_arg6) (rowVec (V c main_v35)))
          (V c main_arg8) (rowVec (V c main_v36)) :=
  (dat1 V c).arrAt_eq_of_cover 8 _ (fun t _ => flushed1_eq V c t) cover1

end Cert.KernelIdeal.KValue

end
-- ==== Proof.KerRun.lean ====
/-
  The kernel's program run from its launch to its return, with the final contents of its buffers named.

  The program is four segments: a stretch of host operations, the first region, a second stretch of host operations and
  the second region. The generated frame certificate carries the buffers' contents through the segments as a fold — a
  stretch leaves what its operations compute from what it was entered with, a region leaves each of its output arrays at
  what its write-backs leave and every other buffer alone — and ends at the contents `W4`. Here the same run is read with
  those contents kept for EVERY buffer the thread holds (`run_contents`), and then at the result's buffer and the ten
  argument buffers (`run_result`): the result ends at `W4` there, each argument as it was launched.
-/
import proofs.«175763_j33844342293302_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this one, which takes unfolding plain
-- definitions in a metavariable's type
set_option backward.isDefEq.respectTransparency.types false in
/-- Every weakly fair execution of the program terminates, nothing faulting, and in every final state each buffer the
    thread holds is at the last boundary's contents `W4`: the launch over the generated segments, the last thread state
    read against the final state. -/
theorem run_contents : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run read at the result's buffer and at the arguments': the result ends at the last boundary's contents, each
    argument as launched (no host operation and no region writes one). -/
theorem run_result : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v37 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩)
    (run_contents m ρ)

end Cert.KernelIdeal.KValue

end
-- ==== Proof.KerValue.lean ====
/-
  The kernel's result as a function of its ten arguments: the fold of buffer contents through the program, read back.

  The first stretch of host operations computes, from the edge table and the node features, the reciprocal-degree column
  and the neighbours' feature sums; these are the same operations, with the same constants, as the reference program's,
  so they are the reference's stage functions of the arguments. The first region leaves the hidden features — one
  mean-aggregation layer of those arrays. The second stretch gathers the hidden features at the edges' sources and
  scatter-adds them at the edges' targets, again as the reference does. The second region leaves the classifier head on
  the second layer. Put together the result's buffer ends at the network `net` of the ten arguments.
-/
import proofs.«175763_j33844342293302_1_alg».proof.Proof.KerLayer2
import proofs.«175763_j33844342293302_1_alg».proof.Proof.KerRun
import proofs.«175763_j33844342293302_1_alg».proof.Proof.RefSide
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo
open Idealize.ShloMosaic.Pipeline (Dat)
open Cert.ReferenceIdeal.Read Cert.ReferenceIdeal.RefValue
open Cert.Lib.Sage Cert.Lib.BiasDot Cert.Lib.RowLayers

variable (m : (ℓ : Loc nD τ sig) → Buf (Elt Ideal) ℓ) (ρ : Dev nD → PrngReg)

/-! ## What the first region is entered with -/

/-- The neighbours' feature sums. -/
theorem entry_agg (c : Dev nD) :
    V1 m ρ c main_v22 = val_main_v22 (F := Ideal) (m ((c : Thread nD τ).loc main_arg0)) (m ((c : Thread nD τ).loc main_arg1)) := by
  show StableHlo.after hostOps0 (W0 m ρ c) (Proc.devRef .tc main_v22) = _
  after_results_simp <;> rfl

/-- The reciprocal-degree column. -/
theorem entry_inv (c : Dev nD) : V1 m ρ c main_v12 = val_main_v12 (F := Ideal) (m ((c : Thread nD τ).loc main_arg1)) := by
  show StableHlo.after hostOps0 (W0 m ρ c) (Proc.devRef .tc main_v12) = _
  after_results_simp <;> rfl

/-- The node features, as launched. -/
theorem entry_x (c : Dev nD) : V1 m ρ c main_arg0 = (m ((c : Thread nD τ).loc main_arg0)) := by
  show StableHlo.after hostOps0 (W0 m ρ c) (Proc.devRef .tc main_arg0) = _
  after_results_simp <;> rfl

/-- The first layer's two weights, as launched. -/
theorem entry_wl (c : Dev nD) : V1 m ρ c main_arg2 = (m ((c : Thread nD τ).loc main_arg2)) := by
  show StableHlo.after hostOps0 (W0 m ρ c) (Proc.devRef .tc main_arg2) = _
  after_results_simp <;> rfl
theorem entry_wr (c : Dev nD) : V1 m ρ c main_arg3 = (m ((c : Thread nD τ).loc main_arg3)) := by
  show StableHlo.after hostOps0 (W0 m ρ c) (Proc.devRef .tc main_arg3) = _
  after_results_simp <;> rfl

/-- The first layer's bias, reshaped to a row by the host and read back as a vector. -/
theorem entry_bias (c : Dev nD) : rowVec (V1 m ρ c main_v23) = (m ((c : Thread nD τ).loc main_arg4)) := by
  have e : V1 m ρ c main_v23 = shapeCast S1x16 (m ((c : Thread nD τ).loc main_arg4)) shapeCasts_S16_S1x16 := by
    show StableHlo.after hostOps0 (W0 m ρ c) (Proc.devRef .tc main_v23) = _
    after_results_simp <;> rfl
  rw [e]
  exact rowVec_reshape _ _

/-! ## What the first region leaves, and what the second stretch reads -/

/-- The hidden features: the first region's output array. -/
theorem left_hidden (c : Dev nD) : W2 m ρ c (Proc.devRef .tc main_v24) = hidden (m ((c : Thread nD τ).loc main_arg0)) (m ((c : Thread nD τ).loc main_arg1)) (m ((c : Thread nD τ).loc main_arg2)) (m ((c : Thread nD τ).loc main_arg3)) (m ((c : Thread nD τ).loc main_arg4)) := by
  have h := (W2_arr m ρ c 6).trans (hidden_array (V1 m ρ) c)
  rw [entry_agg, entry_inv, entry_x, entry_wl, entry_wr, entry_bias] at h
  exact h

/-- The reciprocal-degree column is an input of the first region: left as entered. -/
theorem left_inv (c : Dev nD) : W2 m ρ c (Proc.devRef .tc main_v12) = val_main_v12 (F := Ideal) (m ((c : Thread nD τ).loc main_arg1)) :=
  (W2_arr m ρ c 1).trans (((dat0 (V1 m ρ) c).arrAt_in 1 rfl _).trans ((A_eq0 (V1 m ρ) c 1).trans (entry_inv m ρ c)))

/-- The edges' sources and targets, sliced off the edge table by the first stretch; no region touches them. -/
theorem left_src (c : Dev nD) : W2 m ρ c (Proc.devRef .tc main_v1) = val_main_v1 (F := Ideal) (m ((c : Thread nD τ).loc main_arg1)) := by
  rw [W2_of_ne m ρ c main_v1 (by decide)]
  show StableHlo.after hostOps0 (W0 m ρ c) (Proc.devRef .tc main_v1) = _
  after_results_simp <;> rfl
theorem left_dst (c : Dev nD) : W2 m ρ c (Proc.devRef .tc main_v3) = val_main_v3 (F := Ideal) (m ((c : Thread nD τ).loc main_arg1)) := by
  rw [W2_of_ne m ρ c main_v3 (by decide)]
  show StableHlo.after hostOps0 (W0 m ρ c) (Proc.devRef .tc main_v3) = _
  after_results_simp <;> rfl

/-- The second layer's weights, the head's weight and the two remaining biases: as launched. -/
theorem left_wl (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results_simp <;> rfl
/-- (the second weight) -/
theorem left_wr (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results_simp <;> rfl
/-- (the second layer's bias) -/
theorem left_b (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results_simp <;> rfl
/-- (the head's weight) -/
theorem left_wc (c : Dev nD) : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results_simp <;> rfl
/-- (the head's bias) -/
theorem left_bc (c : Dev nD) : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  after_results_simp <;> rfl

/-! ## What the second region is entered with -/

/-- The neighbours' sums of the hidden features. -/
theorem entry2_agg (c : Dev nD) : V3 m ρ c main_v34 = aggHidden (hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps1 (W2 m ρ c) (Proc.devRef .tc main_v34) = _
  after_results_simp
  rw [left_hidden, left_src, left_dst]
  rfl

theorem entry2_inv (c : Dev nD) : V3 m ρ c main_v12 = val_main_v12 (F := Ideal) (m ((c : Thread nD τ).loc main_arg1)) := by
  show StableHlo.after hostOps1 (W2 m ρ c) (Proc.devRef .tc main_v12) = _
  after_results_simp
  exact left_inv m ρ c

theorem entry2_hidden (c : Dev nD) : V3 m ρ c main_v24 = hidden (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v24) = _
  after_results_simp
  exact left_hidden m ρ c

theorem entry2_wl (c : Dev nD) : V3 m ρ c main_arg5 = (m ((c : Thread nD τ).loc main_arg5)) := by
  show StableHlo.after hostOps1 (W2 m ρ c) (Proc.devRef .tc main_arg5) = _
  after_results_simp
  exact left_wl m ρ c
theorem entry2_wr (c : Dev nD) : V3 m ρ c main_arg6 = (m ((c : Thread nD τ).loc main_arg6)) := by
  show StableHlo.after hostOps1 (W2 m ρ c) (Proc.devRef .tc main_arg6) = _
  after_results_simp
  exact left_wr m ρ c
theorem entry2_wc (c : Dev nD) : V3 m ρ c main_arg8 = (m ((c : Thread nD τ).loc main_arg8)) := by
  show StableHlo.after hostOps1 (W2 m ρ c) (Proc.devRef .tc main_arg8) = _
  after_results_simp
  exact left_wc m ρ c

theorem entry2_bias (c : Dev nD) : rowVec (V3 m ρ c main_v35) = (m ((c : Thread nD τ).loc main_arg7)) := by
  have e : V3 m ρ c main_v35 = shapeCast S1x16 (m ((c : Thread nD τ).loc main_arg7)) shapeCasts_S16_S1x16 := by
    show StableHlo.after hostOps1 (W2 m ρ c) (Proc.devRef .tc main_v35) = _
    after_results_simp
    rw [left_b]
    rfl
  rw [e]
  exact rowVec_reshape _ _

theorem entry2_bc (c : Dev nD) : rowVec (V3 m ρ c main_v36) = (m ((c : Thread nD τ).loc main_arg9)) := by
  have e : V3 m ρ c main_v36 = shapeCast S1x8 (m ((c : Thread nD τ).loc main_arg9)) shapeCasts_S8_S1x8 := by
    show StableHlo.after hostOps1 (W2 m ρ c) (Proc.devRef .tc main_v36) = _
    after_results_simp
    rw [left_bc]
    rfl
  rw [e]
  exact rowVec_reshape _ _

/-! ## The result -/

/-- THE RESULT'S BUFFER at the last boundary: the network of the ten arguments. -/
theorem result_contents (c : Dev nD) :
    W4 m ρ c (Proc.devRef .tc main_v37)
      = net (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) := by
  have h := (W4_arr m ρ c 8).trans (result_array (V3 m ρ) c)
  rw [entry2_agg, entry2_inv, entry2_hidden, entry2_wl, entry2_wr, entry2_bias, entry2_wc, entry2_bc] at h
  exact h

end Cert.KernelIdeal.KValue

end
-- ==== Proof.lean ====
/-
  A two-layer mean-aggregation graph network with a linear classifier head on 100000 nodes and 3200000 edges: the
  kernel's program against its reference, on the extended reals.

  Both programs first compute, on the host and with the same operations and constants, each node's reciprocal degree
  `1 / max(deg, 1)` and the sums of its neighbours' features (a row gather at the edges' sources, a scatter-add at their
  targets). A layer is then, per node `p` and output feature `q`,

      max ((∑ k, (agg (p, k) · inv p) · Wl (k, q)) + (∑ k, h (p, k) · Wr (k, q)) + b q) 0,

  and the head `∑ j, h2 (p, j) · Wc (j, q) + bc q`. The reference computes the layers on the host over whole arrays. The
  kernel's program computes each in a region that walks the nodes in ten blocks of 10000 rows, narrowing the matrix
  products' operands to a shorter float format (the identity on extended reals) and accumulating into zero; between the
  regions it gathers and scatter-adds the hidden features exactly as the reference does. An entry of a layer depends on
  one row of its row-indexed operands only, so a block's result is the block of the whole arrays' result, and the ten
  blocks tile the arrays. Both sides read the same terms in the same order, so no algebraic law is needed and the
  equality holds at infinite entries too: the precondition is never opened.

  The modules: the layer as a whole-array function and its two spellings (LibSage, over the dense-layer modules); the
  reference's stages as that function (RefSide, over the generated run and read-at-an-index modules); each region's
  output array (KerLayer1, KerLayer2, over the generated frame's proof data); the kernel's run with its final buffer
  contents named (KerRun) and read back to the arguments (KerValue). Here: the three frames, the empty ledger, and the
  two runs side by side.
-/
import proofs.«175763_j33844342293302_1_alg».proof.Defs
import proofs.«175763_j33844342293302_1_alg».proof.Proof.Gen.Kernel
import proofs.«175763_j33844342293302_1_alg».proof.Proof.Gen.Kernel.Frame
import proofs.«175763_j33844342293302_1_alg».proof.Proof.Gen.KernelIdeal
import proofs.«175763_j33844342293302_1_alg».proof.Proof.Gen.KernelIdeal.Frame
import proofs.«175763_j33844342293302_1_alg».proof.Proof.Gen.ReferenceIdeal
import proofs.«175763_j33844342293302_1_alg».proof.Proof.Gen.ReferenceIdeal.Run
import proofs.«175763_j33844342293302_1_alg».proof.Proof.Gen.ReferenceIdeal.Read
import proofs.«175763_j33844342293302_1_alg».proof.Proof.Gen.Pre_finite_inputs
import proofs.«175763_j33844342293302_1_alg».proof.Proof.RefSide
import proofs.«175763_j33844342293302_1_alg».proof.Proof.KerValue
import Idealize.ShloMosaic.Adequacy
import Idealize.ShloMosaic.Init

noncomputable section

namespace Cert.Proof

open Idealize.ShloMosaic Idealize.SL.Sem

/-- The kernel's program as printed runs and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨fun c => Cert.ReferenceIdeal.RefValue.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KValue.result_contents m ρ c), (h c).2⟩)
      (Cert.KernelIdeal.KValue.run_result m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9⟩ := hagree c
    rw [(h c).1, Cert.ReferenceIdeal.Read.val_main_v54_eq, Cert.ReferenceIdeal.RefValue.net_eq,
      e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
